-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x100 : Shape := ⟨2, ![64, 100]⟩
abbrev S100 : Shape := ⟨1, ![100]⟩
abbrev S100x1 : Shape := ⟨2, ![100, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x100 : S_.BroadcastsInDim S64x100 (![] : Fin 0 → Fin S64x100.rank)
  reducesTo_S64x100_S_d0_1 : S64x100.ReducesTo [0, 1] S_
  bcast_S_S100 : S_.BroadcastsInDim S100 (![] : Fin 0 → Fin S100.rank)
  reducesTo_S100_S_d0 : S100.ReducesTo [0] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S100 .f32) (main_arg10 : FVec F S100x1 .f32) (main_arg11 : FVec F S1 .f32) (main_v33 : IVec S_ 1) : IVec S_ 1 :=
  let main_v34 : FVec F S100 .f32 := Host.absf main_arg9
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x1 .f32 := Host.absf main_arg10
  let main_cst_14 : FVec F S_ .f32 := constant S_ .f32 0x7F800000#32
  let main_v40 : FVec F S100x1 .f32 := broadcastInDim S100x1 ![] bcast_S_S100x1 main_cst_14
  let main_v41 : IVec S100x1 1 := cmpf .olt main_v39 main_v40
  let main_c_15 : IVec S_ 1 := constantI S_ 1 1#1
  let main_v42 : IVec S_ 1 := (fun x v => Host.reduce IntOp.andi x v reducesTo_S100x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x100 .f32) (main_arg9 : FVec F S100 .f32) (main_arg10 : FVec F S100x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x100 .f32 := Host.absf main_arg8
  let main_cst_10 : FVec F S_ .f32 := constant S_ .f32 0x7F800000#32
  let main_v30 : FVec F S64x100 .f32 := broadcastInDim S64x100 ![] bcast_S_S64x100 main_cst_10
  let main_v31 : IVec S64x100 1 := cmpf .olt main_v29 main_v30
  let main_c_11 : IVec S_ 1 := constantI S_ 1 1#1
  let main_v32 : IVec S_ 1 := (fun x v => Host.reduce IntOp.andi x v reducesTo_S64x100_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S800000 32) (main_arg2 : IVec S800000 32) (main_arg3 : FVec F S800000 .f32) (main_arg4 : FVec F S64x64 .f32) (main_arg5 : FVec F S64 .f32) (main_arg6 : FVec F S64x64 .f32) (main_arg7 : FVec F S64 .f32) (main_arg8 : FVec F S64x100 .f32) (main_arg9 : FVec F S100 .f32) (main_arg10 : FVec F S100x1 .f32) (main_arg11 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x100 : Shape := ⟨2, ![64, 100]⟩
abbrev S100 : Shape := ⟨1, ![100]⟩
abbrev S100x1 : Shape := ⟨2, ![100, 1]⟩
abbrev S1 : Shape := ⟨1, ![1]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S1x100 : Shape := ⟨2, ![1, 100]⟩
abbrev S1x1 : Shape := ⟨2, ![1, 1]⟩
abbrev S50000x1 : Shape := ⟨2, ![50000, 1]⟩
abbrev S2000x1 : Shape := ⟨2, ![2000, 1]⟩
abbrev S2000x100 : Shape := ⟨2, ![2000, 100]⟩

abbrev nBuf : Space → Nat
  | .hbm => 51
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x100, .f32⟩
  | .hbm, ⟨9, _⟩ => ⟨S100, .f32⟩
  | .hbm, ⟨10, _⟩ => ⟨S100x1, .f32⟩
  | .hbm, ⟨11, _⟩ => ⟨S1, .f32⟩
  | .hbm, ⟨12, _⟩ => ⟨S50000x64, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x1, .f32⟩
  | .hbm, ⟨23, _⟩ => ⟨S800000x64, .f32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S1x64, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x1, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S1x64, .f32⟩
  | .hbm, ⟨48, _⟩ => ⟨S1x100, .f32⟩
  | .hbm, ⟨49, _⟩ => ⟨S1x1, .f32⟩
  | .hbm, ⟨50, _⟩ => ⟨S50000x1, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S64x100, .f32⟩
  | .local _ .vmem, ⟨15, _⟩ => ⟨S1x100, .f32⟩
  | .local _ .vmem, ⟨16, _⟩ => ⟨S100x1, .f32⟩
  | .local _ .vmem, ⟨17, _⟩ => ⟨S1x1, .f32⟩
  | .local _ .vmem, ⟨18, _⟩ => ⟨S2000x1, .f32⟩
  | .local _ .vmem, ⟨19, _⟩ => ⟨S2000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S100x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S100_S1x100 : S100.ShapeCasts S1x100
  shapeCasts_S1_S1x1 : S1.ShapeCasts S1x1
  inb_S64x100_S64x100_0_0 : ∀ a, (![0, 0] : Fin 2 → Nat) a + S64x100.size a ≤ S64x100.size a
  h_S64x100 : 0 < S64x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  inb_S100x1_S100x1_0_0 : ∀ a, (![0, 0] : Fin 2 → Nat) a + S100x1.size a ≤ S100x1.size a
  h_S100x1 : 0 < S100x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x100_S2000x100_1_0_0_1_n_n_wf : DotDims.WF S2000x64 S64x100 S2000x100 [1] [0] [0] [1] [] []
  dot_S2000x100_S100x1_S2000x1_1_0_0_1_n_n_wf : DotDims.WF S2000x100 S100x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x100.size a ≤ S64x100.size a
  hwx2_2 : ∀ i : grid2.Coords, EltTy.bits .f32 = 32 ∨ (Rect.block (s := S64x100) S64x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S100x1.size a ≤ S100x1.size a
  hwx2_4 : ∀ i : grid2.Coords, EltTy.bits .f32 = 32 ∨ (Rect.block (s := S100x1) S100x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S50000x1.size a
  hwx2_6 : ∀ i : grid2.Coords, EltTy.bits .f32 = 32 ∨ (Rect.block (s := S50000x1) S2000x1.size (cc2_transform_6 i) (hinb2_6 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x100_S2000x100_1_0_0_1_n_n : DotDims S2000x64 S64x100 S2000x100 where
  lhsContracting := [1]
  rhsContracting := [0]
  lhsNonContracting := [0]
  rhsNonContracting := [1]
  lhsBatch := []
  rhsBatch := []
  wf := dot_S2000x64_S64x100_S2000x100_1_0_0_1_n_n_wf
def dot_S2000x100_S100x1_S2000x1_1_0_0_1_n_n : DotDims S2000x100 S100x1 S2000x1 where
  lhsContracting := [1]
  rhsContracting := [0]
  lhsNonContracting := [0]
  rhsNonContracting := [1]
  lhsBatch := []
  rhsBatch := []
  wf := dot_S2000x100_S100x1_S2000x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S100x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S2000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x100 : Shape := ⟨2, ![64, 100]⟩
abbrev S100 : Shape := ⟨1, ![100]⟩
abbrev S100x1 : Shape := ⟨2, ![100, 1]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x100 : Shape := ⟨2, ![50000, 100]⟩
abbrev S1x100 : Shape := ⟨2, ![1, 100]⟩
abbrev S50000x1 : Shape := ⟨2, ![50000, 1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x100, .f32⟩
  | .hbm, ⟨9, _⟩ => ⟨S100, .f32⟩
  | .hbm, ⟨10, _⟩ => ⟨S100x1, .f32⟩
  | .hbm, ⟨11, _⟩ => ⟨S1, .f32⟩
  | .hbm, ⟨12, _⟩ => ⟨S50000x64, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x1, .f32⟩
  | .hbm, ⟨23, _⟩ => ⟨S800000x64, .f32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S1x64, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S800000x1, .f32⟩
  | .hbm, ⟨52, _⟩ => ⟨S800000x64, .f32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S50000x100, .f32⟩
  | .hbm, ⟨71, _⟩ => ⟨S1x100, .f32⟩
  | .hbm, ⟨72, _⟩ => ⟨S50000x100, .f32⟩
  | .hbm, ⟨73, _⟩ => ⟨S50000x100, .f32⟩
  | .hbm, ⟨74, _⟩ => ⟨S50000x100, .f32⟩
  | .hbm, ⟨75, _⟩ => ⟨S50000x100, .f32⟩
  | .hbm, ⟨76, _⟩ => ⟨S_, .f32⟩
  | .hbm, ⟨77, _⟩ => ⟨S50000x100, .f32⟩
  | .hbm, ⟨78, _⟩ => ⟨S50000x100, .f32⟩
  | .hbm, ⟨79, _⟩ => ⟨S_, .f32⟩
  | .hbm, ⟨80, _⟩ => ⟨S50000x100, .f32⟩
  | .hbm, ⟨81, _⟩ => ⟨S50000x100, .f32⟩
  | .hbm, ⟨82, _⟩ => ⟨S50000x100, .f32⟩
  | .hbm, ⟨83, _⟩ => ⟨S50000x1, .f32⟩
  | .hbm, ⟨84, _⟩ => ⟨S1x1, .f32⟩
  | .hbm, ⟨85, _⟩ => ⟨S50000x1, .f32⟩
  | .hbm, ⟨86, _⟩ => ⟨S50000x1, .f32⟩
  | .hbm, ⟨87, _⟩ => ⟨S50000x1, .f32⟩
  | .hbm, ⟨88, _⟩ => ⟨S50000x1, .f32⟩
  | .hbm, ⟨89, _⟩ => ⟨S_, .f32⟩
  | .hbm, ⟨90, _⟩ => ⟨S50000x1, .f32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_c_1 : Ref sig .tc := ⟨.hbm, 42, rfl⟩
abbrev main_v19 : Ref sig .tc := ⟨.hbm, 43, rfl⟩
abbrev main_v20 : Ref sig .tc := ⟨.hbm, 44, rfl⟩
abbrev main_c_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_4 : Ref sig .tc := ⟨.hbm, 89, rfl⟩
abbrev main_v47 : Ref sig .tc := ⟨.hbm, 90, rfl⟩
abbrev main_v48 : Ref sig .tc := ⟨.hbm, 91, rfl⟩
abbrev main_cst_5 : Ref sig .tc := ⟨.hbm, 92, rfl⟩
abbrev main_v49 : Ref sig .tc := ⟨.hbm, 93, rfl⟩
abbrev main_v50 : Ref sig .tc := ⟨.hbm, 94, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x100_S50000x100_1_0_0_1_n_n_wf : DotDims.WF S50000x64 S64x100 S50000x100 [1] [0] [0] [1] [] []
  dot_S50000x100_S100x1_S50000x1_1_0_0_1_n_n_wf : DotDims.WF S50000x100 S100x1 S50000x1 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x100_S50000x100_1_0_0_1_n_n : DotDims S50000x64 S64x100 S50000x100 where
  lhsContracting := [1]
  rhsContracting := [0]
  lhsNonContracting := [0]
  rhsNonContracting := [1]
  lhsBatch := []
  rhsBatch := []
  wf := dot_S50000x64_S64x100_S50000x100_1_0_0_1_n_n_wf
def dot_S50000x100_S100x1_S50000x1_1_0_0_1_n_n : DotDims S50000x100 S100x1 S50000x1 where
  lhsContracting := [1]
  rhsContracting := [0]
  lhsNonContracting := [0]
  rhsNonContracting := [1]
  lhsBatch := []
  rhsBatch := []
  wf := dot_S50000x100_S100x1_S50000x1_1_0_0_1_n_n_wf

class Facts : Prop extends Facts₀ where

variable [Facts]
-- ==== Proof.KernelRun.lean ====
/-
  The idealized kernel's run with its result array named.

  @main is three kernel regions among two stretches of host operations. The buffer contents at the five segment
  boundaries are a fold from the launch memory: a region leaves each of its arrays at what its write-backs leave and
  every other buffer as entered; a stretch of host operations leaves the buffers at its operations' results. Every weakly
  fair execution terminates with every unscoped buffer at the last boundary's contents; read at the result array this
  gives the result as the fold's term of the launch memory, and read at the arguments their launch contents.
-/
import proofs.«170280_j68341519614046_1_alg».proof.Proof.Gen.KernelIdeal.Frame

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the last boundary's
    contents and the argument arrays as launched. -/
theorem run_value : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v32 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.Stages

end
-- ==== Proof.Net.lean ====
/-
  The network both programs compute, as functions of whole arrays over the extended reals. Independent of any program.

  Two graph-convolution layers followed by a two-layer dense head:
    h₁ = x · W₁,            a₁ = A(h₁),
    h₂ = s(a₁ + b₁) · W₂,   a₂ = A(h₂),
    out = σ( s( s(a₂ + b₂) · W_d + b_d ) · W_o + b_o ),
  where · is the matrix product, a bias is added to every row, s(z) = z · σ(z) is the swish, σ(z) = 1 / (1 + e^(-z))
  the logistic function, and A is the edge aggregation (gather the source rows, scale by the edge weight, add into
  the destination rows), which enters here as an arbitrary map of [n, f] arrays: nothing below depends on what it is.
-/
import Idealize.ShloMosaic.Lib.ValueIdx
import Idealize.ShloMosaic.PureOps.Ideal

noncomputable section

namespace Cert.Net

open Idealize.ShloMosaic Idealize.ShloMosaic.ValueIdx

/-- An [a, b] array of extended reals. -/
abbrev Mat (a b : Nat) : Type := (⟨2, ![a, b]⟩ : Shape).Idx → EReal
/-- A [b] array of extended reals. -/
abbrev Row (b : Nat) : Type := (⟨1, ![b]⟩ : Shape).Idx → EReal

/-- The matrix product: entry (p, q) is the sum over j of l (p, j) · r (j, q). -/
def mm {a k b : Nat} (l : Mat a k) (r : Mat k b) : Mat a b :=
  fun i => ∑ j : Fin k, l (ix2 (i 0) j) * r (ix2 j (i 1))

theorem mm_apply {a k b : Nat} (l : Mat a k) (r : Mat k b) (p : Fin a) (q : Fin b) :
    mm l r (ix2 p q) = ∑ j : Fin k, l (ix2 p j) * r (ix2 j q) := rfl

/-- The swish of an extended real: z · σ(z). -/
def swish (z : EReal) : EReal := z * Ideal.logistic z

/-- A vector laid out as a one-row matrix. -/
def rowOf {b : Nat} (v : Row b) : Mat 1 b := fun i => v (ix1 (i 1))

theorem rowOf_apply {b : Nat} (v : Row b) (q : Fin b) : rowOf v (ix2 0 q) = v (ix1 q) := rfl

/-- Add the row `b` to every row of `a`, then the swish, entry by entry. -/
def act {n f : Nat} (a : Mat n f) (b : Mat 1 f) : Mat n f := fun i => swish (a i + b (ix2 0 (i 1)))

theorem act_apply {n f : Nat} (a : Mat n f) (b : Mat 1 f) (p : Fin n) (q : Fin f) :
    act a b (ix2 p q) = swish (a (ix2 p q) + b (ix2 0 q)) := rfl

/-- Add the row `b` to every row of `a`, then the logistic function, entry by entry. -/
def sig {n f : Nat} (a : Mat n f) (b : Mat 1 f) : Mat n f := fun i => Ideal.logistic (a i + b (ix2 0 (i 1)))

theorem sig_apply {n f : Nat} (a : Mat n f) (b : Mat 1 f) (p : Fin n) (q : Fin f) :
    sig a b (ix2 p q) = Ideal.logistic (a (ix2 p q) + b (ix2 0 q)) := rfl

/-- The dense head: σ( s( s(a + b₂) · W_d + b_d ) · W_o + b_o ). -/
def head {n : Nat} (a : Mat n 64) (b2 : Mat 1 64) (Wd : Mat 64 100) (bd : Mat 1 100) (Wo : Mat 100 1) (bo : Mat 1 1) :
    Mat n 1 :=
  sig (mm (act (mm (act a b2) Wd) bd) Wo) bo

/-! ## Row locality: an entry of a product, an activation or the head depends on its own row of the first operand only -/

theorem mm_row {a a' k b : Nat} (l : Mat a k) (l' : Mat a' k) (r : Mat k b) (p : Fin a) (p' : Fin a')
    (h : ∀ j : Fin k, l (ix2 p j) = l' (ix2 p' j)) (q : Fin b) : mm l r (ix2 p q) = mm l' r (ix2 p' q) := by
  rw [mm_apply, mm_apply]
  exact Finset.sum_congr rfl fun j _ => by rw [h j]

theorem act_row {n n' f : Nat} (a : Mat n f) (a' : Mat n' f) (b : Mat 1 f) (p : Fin n) (p' : Fin n') (q : Fin f)
    (h : a (ix2 p q) = a' (ix2 p' q)) : act a b (ix2 p q) = act a' b (ix2 p' q) := by
  rw [act_apply, act_apply, h]

theorem head_row {n n' : Nat} (a : Mat n 64) (a' : Mat n' 64) (b2 : Mat 1 64) (Wd : Mat 64 100) (bd : Mat 1 100)
    (Wo : Mat 100 1) (bo : Mat 1 1) (p : Fin n) (p' : Fin n') (h : ∀ k : Fin 64, a (ix2 p k) = a' (ix2 p' k)) (q : Fin 1) :
    head a b2 Wd bd Wo bo (ix2 p q) = head a' b2 Wd bd Wo bo (ix2 p' q) := by
  unfold head
  rw [sig_apply, sig_apply]
  refine congrArg (fun z => Ideal.logistic (z + bo (ix2 0 q))) ?_
  refine mm_row _ _ Wo p p' (fun j => ?_) q
  refine act_row _ _ bd p p' j ?_
  refine mm_row _ _ Wd p p' (fun k => ?_) j
  exact act_row a a' b2 p p' k (h k)

/-- The whole network, the aggregation `A` a parameter. -/
def net {n : Nat} (A : Mat n 64 → Mat n 64) (x : Mat n 64) (W1 : Mat 64 64) (b1 : Row 64) (W2 : Mat 64 64) (b2 : Row 64)
    (Wd : Mat 64 100) (bd : Row 100) (Wo : Mat 100 1) (bo : Row 1) : Mat n 1 :=
  head (A (mm (act (A (mm x W1)) (rowOf b1)) W2)) (rowOf b2) Wd (rowOf bd) Wo (rowOf bo)

end Cert.Net

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.KernelOps.lean ====
/-
  The idealized kernel bodies' operations as the network's operations, over the extended reals.

  A tile's matrix product into a zero accumulator is the matrix product of the two blocks (a change of float format is
  the identity here); a bias row broadcast down the rows, added, and followed by z · σ(z) is the layer's activation; the
  same followed by σ alone is the output's.
-/
import proofs.«170280_j68341519614046_1_alg».proof.Proof.Gen.KernelIdeal.Skeleton
import proofs.«170280_j68341519614046_1_alg».proof.Proof.Net
import proofs.«170280_j68341519614046_1_alg».proof.Proof.LibPlainDot
import proofs.«170280_j68341519614046_1_alg».proof.Proof.LibRowLayout
import Idealize.ShloMosaic.Lib.Pipeline.Value
import Idealize.ShloMosaic.Lib.ValueIdx

noncomputable section

namespace Cert.KernelIdeal.Stages

open Cert.KernelIdeal Cert.KernelIdeal.Gen
open Idealize.ShloMosaic Idealize.ShloMosaic.TcCoe Idealize.ShloMosaic.ValueIdx

theorem hz : (![0, 0] : Fin 2 → Nat) = fun _ => 0 := funext fun a => by fin_cases a <;> rfl

/-- A [2000, 64] tile times a [64, 64] matrix. -/
theorem mm_64_64 (l : FVec Ideal S2000x64 .f32) (r : FVec Ideal S64x64 .f32) :
    matmul dot_S2000x64_S64x64_S2000x64_1_0_0_1_n_n none (truncf .bf16 l bitsLt_bf16_f32) (truncf .bf16 r bitsLt_bf16_f32)
      (constant S2000x64 .f32 0x00000000#32) = Net.mm l r := by
  funext j
  obtain ⟨p, q, rfl⟩ : ∃ (p : Fin 2000) (q : Fin 64), j = ix2 p q := ⟨j 0, j 1, eq_ix2 j⟩
  exact Cert.Lib.matmul_zero_apply dot_S2000x64_S64x64_S2000x64_1_0_0_1_n_n_wf none _ _ p q

/-- A [2000, 64] tile times a [64, 100] matrix. -/
theorem mm_64_100 (l : FVec Ideal S2000x64 .f32) (r : FVec Ideal S64x100 .f32) :
    matmul dot_S2000x64_S64x100_S2000x100_1_0_0_1_n_n none (truncf .bf16 l bitsLt_bf16_f32) (truncf .bf16 r bitsLt_bf16_f32)
      (constant S2000x100 .f32 0x00000000#32) = Net.mm l r := by
  funext j
  obtain ⟨p, q, rfl⟩ : ∃ (p : Fin 2000) (q : Fin 100), j = ix2 p q := ⟨j 0, j 1, eq_ix2 j⟩
  exact Cert.Lib.matmul_zero_apply dot_S2000x64_S64x100_S2000x100_1_0_0_1_n_n_wf none _ _ p q

/-- A [2000, 100] tile times a [100, 1] matrix. -/
theorem mm_100_1 (l : FVec Ideal S2000x100 .f32) (r : FVec Ideal S100x1 .f32) :
    matmul dot_S2000x100_S100x1_S2000x1_1_0_0_1_n_n none (truncf .bf16 l bitsLt_bf16_f32) (truncf .bf16 r bitsLt_bf16_f32)
      (constant S2000x1 .f32 0x00000000#32) = Net.mm l r := by
  funext j
  obtain ⟨p, q, rfl⟩ : ∃ (p : Fin 2000) (q : Fin 1), j = ix2 p q := ⟨j 0, j 1, eq_ix2 j⟩
  exact Cert.Lib.matmul_zero_apply dot_S2000x100_S100x1_S2000x1_1_0_0_1_n_n_wf none _ _ p q

/-- A bias row broadcast down the rows and added, then z · σ(z), entry by entry. -/
theorem swishBias_eq {n f : Nat} (a : FVec Ideal ⟨2, ![n, f]⟩ .f32) (b : FVec Ideal ⟨2, ![1, f]⟩ .f32)
    (h : (⟨2, ![1, f]⟩ : Shape).Broadcasts ⟨2, ![n, f]⟩) :
    mulf (addf a (broadcastTo ⟨2, ![n, f]⟩ b h)) (logistic (addf a (broadcastTo ⟨2, ![n, f]⟩ b h))) = Net.act a b := by
  funext j
  obtain ⟨p, q, rfl⟩ : ∃ (p : Fin n) (q : Fin f), j = ix2 p q := ⟨j 0, j 1, eq_ix2 j⟩
  show Net.swish (a (ix2 p q) + broadcastTo ⟨2, ![n, f]⟩ b h (ix2 p q)) = Net.swish (a (ix2 p q) + b (ix2 0 q))
  rw [Cert.Lib.rowBroadcast_apply b h p q]

/-- A bias row broadcast down the rows and added, then σ, entry by entry. -/
theorem logisticBias_eq {n f : Nat} (a : FVec Ideal ⟨2, ![n, f]⟩ .f32) (b : FVec Ideal ⟨2, ![1, f]⟩ .f32)
    (h : (⟨2, ![1, f]⟩ : Shape).Broadcasts ⟨2, ![n, f]⟩) :
    logistic (addf a (broadcastTo ⟨2, ![n, f]⟩ b h)) = Net.sig a b := by
  funext j
  obtain ⟨p, q, rfl⟩ : ∃ (p : Fin n) (q : Fin f), j = ix2 p q := ⟨j 0, j 1, eq_ix2 j⟩
  show Ideal.logistic (a (ix2 p q) + broadcastTo ⟨2, ![n, f]⟩ b h (ix2 p q)) = Ideal.logistic (a (ix2 p q) + b (ix2 0 q))
  rw [Cert.Lib.rowBroadcast_apply b h p q]

/-- Region 0's stored value: the product of its two loaded blocks. -/
theorem pay0_eq (x0 : Vec Ideal S2000x64 .f32) (x1 : Vec Ideal S64x64 .f32) :
    k0_pay1 (F := Ideal) x0 x1 = Net.mm x0 x1 := by
  unfold k0_pay1
  exact mm_64_64 x0 x1

/-- Region 1's stored value: the activation of its block and bias row, times the weights. -/
theorem pay1_eq (x0 : Vec Ideal S2000x64 .f32) (x1 : Vec Ideal S1x64 .f32) (x2 : Vec Ideal S64x64 .f32) :
    k1_pay1 (F := Ideal) x0 x1 x2 = Net.mm (Net.act x0 x1) x2 := by
  unfold k1_pay1
  simp only [shapeCast_self]
  rw [swishBias_eq (n := 2000) (f := 64) x0 x1 broadcasts_S1x64_S2000x64]
  exact mm_64_64 _ x2

/-- Region 2's stored value: the dense head of its block. -/
theorem pay2_eq (x0 : Vec Ideal S2000x64 .f32) (x1 : Vec Ideal S1x64 .f32) (x2 : Vec Ideal S64x100 .f32)
    (x3 : Vec Ideal S1x100 .f32) (x4 : Vec Ideal S100x1 .f32) (x5 : Vec Ideal S1x1 .f32) :
    k2_pay1 (F := Ideal) x0 x1 x2 x3 x4 x5 = Net.head x0 x1 x2 x3 x4 x5 := by
  unfold k2_pay1
  simp only [shapeCast_self]
  rw [swishBias_eq (n := 2000) (f := 64) x0 x1 broadcasts_S1x64_S2000x64, mm_64_100 _ x2,
    swishBias_eq (n := 2000) (f := 100) _ x3 broadcasts_S1x100_S2000x100, mm_100_1 _ x4,
    logisticBias_eq (n := 2000) (f := 1) _ x5 broadcasts_S1x1_S2000x1]
  rfl

end Cert.KernelIdeal.Stages

end
-- ==== Proof.KernelProj.lean ====
/-
  Region 0 of the idealized kernel: the projection h₁ = x · W₁, tile by tile.

  The grid has 25 points; point t stages rows 2000·t … 2000·t + 1999 of x (all 64 columns), the whole of W₁, and
  writes back the same rows of the result. The body multiplies its block of x by W₁ into a zero accumulator (a
  change of float format is the identity over the extended reals), so entry (p, q) of what point t writes is the
  sum over k of x (2000·t + p, k) · W₁ (k, q): the block of the whole product. The 25 blocks tile the rows, so the
  result array ends holding x · W₁.
-/
import proofs.«170280_j68341519614046_1_alg».proof.Proof.Gen.KernelIdeal.Frame
import proofs.«170280_j68341519614046_1_alg».proof.Proof.Net
import proofs.«170280_j68341519614046_1_alg».proof.Proof.KernelOps
import Idealize.ShloMosaic.Lib.Pipeline.Value
import Idealize.ShloMosaic.Lib.ValueIdx

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-tiled windows sit at block row t, the weights at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0_eq (c : Dev nD) (t : Fin cfg0.N) :
    (dat0 V c).flushed 2 t
      = ((cfg0.win 2).blk t).view.read (Elt Ideal) (Net.mm (V c main_arg0) (V c main_arg4)) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x64) hz]
  rw [pay0_eq]
  obtain ⟨e00, e01, e10, e11, e20, e21⟩ := idx0 t
  funext j
  obtain ⟨p, q, rfl⟩ : ∃ (p : Fin 2000) (q : Fin 64), j = ix2 p q := ⟨j 0, j 1, eq_ix2 j⟩
  have ht : t.val < 25 := Nat.lt_of_lt_of_eq t.isLt N_0
  have hp := p.isLt
  show Net.mm (iblk0 V c 0 t) (iblk0 V c 1 t) (ix2 p q)
    = Net.mm (V c main_arg0) (V c main_arg4) (((cfg0.win 2).blk t).view.emb (ix2 p q))
  have hemb : ((cfg0.win 2).blk t).view.emb (ix2 p q) = ix2 (⟨2000 * t.val + p.val, by omega⟩ : Fin 50000) q := by
    funext a; apply Fin.ext
    match a with
    | ⟨0, _⟩ => show win0_2.index t (0 : Fin 2) * 2000 + 1 * p.val = 2000 * t.val + p.val; omega
    | ⟨1, _⟩ => show win0_2.index t (1 : Fin 2) * 64 + 1 * q.val = q.val; omega
  rw [hemb, Net.mm_apply, Net.mm_apply]
  refine Finset.sum_congr rfl fun k _ => ?_
  have hl : iblk0 V c 0 t (ix2 p k) = V c main_arg0 (ix2 (⟨2000 * t.val + p.val, by omega⟩ : Fin 50000) k) := by
    unfold iblk0
    rw [View.read_apply]
    refine congrArg (V c main_arg0) ?_
    funext a; apply Fin.ext
    match a with
    | ⟨0, _⟩ => show win0_0.index t (0 : Fin 2) * 2000 + 1 * p.val = 2000 * t.val + p.val; omega
    | ⟨1, _⟩ => show win0_0.index t (1 : Fin 2) * 64 + 1 * k.val = k.val; omega
  have hr : iblk0 V c 1 t (ix2 k q) = V c main_arg4 (ix2 k q) := by
    unfold iblk0
    rw [View.read_apply]
    refine congrArg (V c main_arg4) ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  rw [hl, hr]

/-- An index of the result array is in point t's block iff each coordinate is in the block's range on its axis. -/
theorem mem_blk0 (t : Fin cfg0.N) (i : S50000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v0).slice (win0_2.rect t)).set ↔ _
  rw [View.set_slice_whole, Rect.mem_set_unit]
  exact Iff.rfl

/-- THE RESULT OF REGION 0: the whole product of the two arrays the region finds. -/
theorem region0_value (c : Dev nD) :
    (dat0 V c).arrAt 2 cfg0.N = Net.mm (V c main_arg0) (V c main_arg4) :=
  (dat0 V c).arrAt_eq_of_cover 2 _ (fun t _ => flushed0_eq V c t) fun i => by
    have hi0 : (i 0).val < 50000 := (i 0).isLt
    have hi1 : (i 1).val < 64 := (i 1).isLt
    have hN : cfg0.N = 25 := N_0
    let t : Fin cfg0.N := ⟨(i 0).val / 2000, by rw [hN]; omega⟩
    obtain ⟨e00, e01, e10, e11, e20, e21⟩ := idx0 t
    have e20' : win0_2.index t (0 : Fin 2) = (i 0).val / 2000 := e20
    refine ⟨t, flush0_2 t, ?_⟩
    rw [mem_blk0]
    intro a
    match a with
    | ⟨0, _⟩ =>
      show win0_2.index t (0 : Fin 2) * 2000 ≤ (i 0).val ∧ (i 0).val < win0_2.index t (0 : Fin 2) * 2000 + 2000
      omega
    | ⟨1, _⟩ =>
      show win0_2.index t (1 : Fin 2) * 64 ≤ (i 1).val ∧ (i 1).val < win0_2.index t (1 : Fin 2) * 64 + 64
      omega

end Cert.KernelIdeal.Stages

end
-- ==== Proof.KernelLayer.lean ====
/-
  Region 1 of the idealized kernel: h₂ = s(a₁ + b₁) · W₂, tile by tile.

  Point t of the 25 stages rows 2000·t … 2000·t + 1999 of the aggregated array a₁, the whole bias row and the whole of
  W₂, and writes back the same rows of the result. The body adds the bias row to every row of its block, applies the
  swish, and multiplies by W₂ into a zero accumulator; each entry of the result depends only on its own row of a₁, so
  what point t writes is the block of the whole-array expression, and the 25 blocks tile the rows.
-/
import proofs.«170280_j68341519614046_1_alg».proof.Proof.Gen.KernelIdeal.Frame
import proofs.«170280_j68341519614046_1_alg».proof.Proof.Net
import proofs.«170280_j68341519614046_1_alg».proof.Proof.KernelOps
import Idealize.ShloMosaic.Lib.Pipeline.Value
import Idealize.ShloMosaic.Lib.ValueIdx

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-tiled windows sit at block row t, the bias row and the weights at
    block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array expression. -/
theorem flushed1_eq (c : Dev nD) (t : Fin cfg1.N) :
    (dat1 V c).flushed 3 t
      = ((cfg1.win 3).blk t).view.read (Elt Ideal)
          (Net.mm (Net.act (V c main_v13) (V c main_v14)) (V c main_arg6)) := by
  show (cfg1.win 3).cut (grid1.coords t) ((dat1 V c).after 3 t) = _
  rw [after1_3]
  unfold out1_3
  rw [View.canon_unit_zero hz]
  simp only [View.ld_unit_zero (S := S2000x64) hz, View.ld_unit_zero (S := S1x64) hz, View.ld_unit_zero (S := S64x64) hz]
  rw [pay1_eq]
  obtain ⟨e00, e01, e10, e11, e20, e21, e30, e31⟩ := idx1 t
  funext j
  obtain ⟨p, q, rfl⟩ : ∃ (p : Fin 2000) (q : Fin 64), j = ix2 p q := ⟨j 0, j 1, eq_ix2 j⟩
  have ht : t.val < 25 := Nat.lt_of_lt_of_eq t.isLt N_1
  have hp := p.isLt
  show Net.mm (Net.act (iblk1 V c 0 t) (iblk1 V c 1 t)) (iblk1 V c 2 t) (ix2 p q)
    = Net.mm (Net.act (V c main_v13) (V c main_v14)) (V c main_arg6) (((cfg1.win 3).blk t).view.emb (ix2 p q))
  have hemb : ((cfg1.win 3).blk t).view.emb (ix2 p q) = ix2 (⟨2000 * t.val + p.val, by omega⟩ : Fin 50000) q := by
    funext a; apply Fin.ext
    match a with
    | ⟨0, _⟩ => show win1_3.index t (0 : Fin 2) * 2000 + 1 * p.val = 2000 * t.val + p.val; omega
    | ⟨1, _⟩ => show win1_3.index t (1 : Fin 2) * 64 + 1 * q.val = q.val; omega
  rw [hemb, Net.mm_apply, Net.mm_apply]
  refine Finset.sum_congr rfl fun k _ => ?_
  have hl : iblk1 V c 0 t (ix2 p k) = V c main_v13 (ix2 (⟨2000 * t.val + p.val, by omega⟩ : Fin 50000) k) := by
    unfold iblk1
    rw [View.read_apply]
    refine congrArg (V c main_v13) ?_
    funext a; apply Fin.ext
    match a with
    | ⟨0, _⟩ => show win1_0.index t (0 : Fin 2) * 2000 + 1 * p.val = 2000 * t.val + p.val; omega
    | ⟨1, _⟩ => show win1_0.index t (1 : Fin 2) * 64 + 1 * k.val = k.val; omega
  have hb : iblk1 V c 1 t (ix2 0 k) = V c main_v14 (ix2 0 k) := by
    unfold iblk1
    rw [View.read_apply]
    refine congrArg (V c main_v14) ?_
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have hr : iblk1 V c 2 t (ix2 k q) = V c main_arg6 (ix2 k q) := by
    unfold iblk1
    rw [View.read_apply]
    refine congrArg (V c main_arg6) ?_
    funext a; apply Fin.ext
    match a with
    | ⟨0, _⟩ => show win1_2.index t (0 : Fin 2) * 64 + 1 * k.val = k.val; omega
    | ⟨1, _⟩ => show win1_2.index t (1 : Fin 2) * 64 + 1 * q.val = q.val; omega
  rw [Net.act_apply, Net.act_apply, hl, hb, hr]

/-- An index of the result array is in point t's block iff each coordinate is in the block's range on its axis. -/
theorem mem_blk1 (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v15).slice (win1_3.rect t)).set ↔ _
  rw [View.set_slice_whole, Rect.mem_set_unit]
  exact Iff.rfl

/-- THE RESULT OF REGION 1: the activation of the aggregated array the region finds, times the weights it finds. -/
theorem region1_value (c : Dev nD) :
    (dat1 V c).arrAt 3 cfg1.N = Net.mm (Net.act (V c main_v13) (V c main_v14)) (V c main_arg6) :=
  (dat1 V c).arrAt_eq_of_cover 3 _ (fun t _ => flushed1_eq V c t) fun i => by
    have hi0 : (i 0).val < 50000 := (i 0).isLt
    have hi1 : (i 1).val < 64 := (i 1).isLt
    have hN : cfg1.N = 25 := N_1
    let t : Fin cfg1.N := ⟨(i 0).val / 2000, by rw [hN]; omega⟩
    obtain ⟨e00, e01, e10, e11, e20, e21, e30, e31⟩ := idx1 t
    have e30' : win1_3.index t (0 : Fin 2) = (i 0).val / 2000 := e30
    refine ⟨t, flush1_3 t, ?_⟩
    rw [mem_blk1]
    intro a
    match a with
    | ⟨0, _⟩ =>
      show win1_3.index t (0 : Fin 2) * 2000 ≤ (i 0).val ∧ (i 0).val < win1_3.index t (0 : Fin 2) * 2000 + 2000
      omega
    | ⟨1, _⟩ =>
      show win1_3.index t (1 : Fin 2) * 64 ≤ (i 1).val ∧ (i 1).val < win1_3.index t (1 : Fin 2) * 64 + 64
      omega

end Cert.KernelIdeal.Stages

end
-- ==== Proof.KernelHead.lean ====
/-
  Region 2 of the idealized kernel: the dense head out = σ( s( s(a₂ + b₂) · W_d + b_d ) · W_o + b_o ), tile by tile.

  Point t of the 25 stages rows 2000·t … 2000·t + 1999 of the aggregated array a₂ and the whole of the two bias rows, the
  two weight matrices and the output bias, and writes back the same rows of the [50000, 1] result. Each entry of the
  head depends only on its own row of a₂, so what point t writes is the block of the whole-array expression, and the
  25 blocks tile the rows.
-/
import proofs.«170280_j68341519614046_1_alg».proof.Proof.Gen.KernelIdeal.Frame
import proofs.«170280_j68341519614046_1_alg».proof.Proof.Net
import proofs.«170280_j68341519614046_1_alg».proof.Proof.KernelOps
import Idealize.ShloMosaic.Lib.Pipeline.Value
import Idealize.ShloMosaic.Lib.ValueIdx

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-tiled windows sit at block row t, every other window at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the whole-array expression. -/
theorem flushed2_eq (c : Dev nD) (t : Fin cfg2.N) :
    (dat2 V c).flushed 6 t
      = ((cfg2.win 6).blk t).view.read (Elt Ideal)
          (Net.head (V c main_v28) (V c main_v29) (V c main_arg8) (V c main_v30) (V c main_arg10) (V c main_v31)) := by
  show (cfg2.win 6).cut (grid2.coords t) ((dat2 V c).after 6 t) = _
  rw [after2_6]
  unfold out2_6
  rw [View.canon_unit_zero hz]
  simp only [View.ld_unit_zero (S := S2000x64) hz, View.ld_unit_zero (S := S1x64) hz, View.ld_unit_zero (S := S64x100) hz,
    View.ld_unit_zero (S := S1x100) hz, View.ld_unit_zero (S := S100x1) hz, View.ld_unit_zero (S := S1x1) hz]
  rw [pay2_eq]
  obtain ⟨e00, e01, e10, e11, e20, e21, e30, e31, e40, e41, e50, e51, e60, e61⟩ := idx2 t
  funext j
  obtain ⟨p, q, rfl⟩ : ∃ (p : Fin 2000) (q : Fin 1), j = ix2 p q := ⟨j 0, j 1, eq_ix2 j⟩
  have ht : t.val < 25 := Nat.lt_of_lt_of_eq t.isLt N_2
  have hp := p.isLt
  have hq := q.isLt
  show Net.head (iblk2 V c 0 t) (iblk2 V c 1 t) (iblk2 V c 2 t) (iblk2 V c 3 t) (iblk2 V c 4 t) (iblk2 V c 5 t) (ix2 p q)
    = Net.head (V c main_v28) (V c main_v29) (V c main_arg8) (V c main_v30) (V c main_arg10) (V c main_v31)
        (((cfg2.win 6).blk t).view.emb (ix2 p q))
  have hemb : ((cfg2.win 6).blk t).view.emb (ix2 p q) = ix2 (⟨2000 * t.val + p.val, by omega⟩ : Fin 50000) q := by
    funext a; apply Fin.ext
    match a with
    | ⟨0, _⟩ => show win2_6.index t (0 : Fin 2) * 2000 + 1 * p.val = 2000 * t.val + p.val; omega
    | ⟨1, _⟩ => show win2_6.index t (1 : Fin 2) * 1 + 1 * q.val = q.val; omega
  have hrow : ∀ k : Fin 64, iblk2 V c 0 t (ix2 p k) = V c main_v28 (ix2 (⟨2000 * t.val + p.val, by omega⟩ : Fin 50000) k) := by
    intro k
    unfold iblk2
    rw [View.read_apply]
    refine congrArg (V c main_v28) ?_
    funext a; apply Fin.ext
    match a with
    | ⟨0, _⟩ => show win2_0.index t (0 : Fin 2) * 2000 + 1 * p.val = 2000 * t.val + p.val; omega
    | ⟨1, _⟩ => show win2_0.index t (1 : Fin 2) * 64 + 1 * k.val = k.val; omega
  have h1 : (iblk2 V c 1 t : Vec Ideal S1x64 .f32) = (V c main_v29 : Vec Ideal S1x64 .f32) := by
    funext y
    unfold iblk2
    rw [View.read_apply]
    refine congrArg (V c main_v29) ?_
    funext a; apply Fin.ext
    match a with
    | ⟨0, _⟩ => show win2_1.index t (0 : Fin 2) * 1 + 1 * (y 0).val = (y 0).val; omega
    | ⟨1, _⟩ => show win2_1.index t (1 : Fin 2) * 64 + 1 * (y 1).val = (y 1).val; omega
  have h2 : (iblk2 V c 2 t : Vec Ideal S64x100 .f32) = (V c main_arg8 : Vec Ideal S64x100 .f32) := by
    funext y
    unfold iblk2
    rw [View.read_apply]
    refine congrArg (V c main_arg8) ?_
    funext a; apply Fin.ext
    match a with
    | ⟨0, _⟩ => show win2_2.index t (0 : Fin 2) * 64 + 1 * (y 0).val = (y 0).val; omega
    | ⟨1, _⟩ => show win2_2.index t (1 : Fin 2) * 100 + 1 * (y 1).val = (y 1).val; omega
  have h3 : (iblk2 V c 3 t : Vec Ideal S1x100 .f32) = (V c main_v30 : Vec Ideal S1x100 .f32) := by
    funext y
    unfold iblk2
    rw [View.read_apply]
    refine congrArg (V c main_v30) ?_
    funext a; apply Fin.ext
    match a with
    | ⟨0, _⟩ => show win2_3.index t (0 : Fin 2) * 1 + 1 * (y 0).val = (y 0).val; omega
    | ⟨1, _⟩ => show win2_3.index t (1 : Fin 2) * 100 + 1 * (y 1).val = (y 1).val; omega
  have h4 : (iblk2 V c 4 t : Vec Ideal S100x1 .f32) = (V c main_arg10 : Vec Ideal S100x1 .f32) := by
    funext y
    unfold iblk2
    rw [View.read_apply]
    refine congrArg (V c main_arg10) ?_
    funext a; apply Fin.ext
    match a with
    | ⟨0, _⟩ => show win2_4.index t (0 : Fin 2) * 100 + 1 * (y 0).val = (y 0).val; omega
    | ⟨1, _⟩ => show win2_4.index t (1 : Fin 2) * 1 + 1 * (y 1).val = (y 1).val; omega
  have h5 : (iblk2 V c 5 t : Vec Ideal S1x1 .f32) = (V c main_v31 : Vec Ideal S1x1 .f32) := by
    funext y
    unfold iblk2
    rw [View.read_apply]
    refine congrArg (V c main_v31) ?_
    funext a; apply Fin.ext
    match a with
    | ⟨0, _⟩ => show win2_5.index t (0 : Fin 2) * 1 + 1 * (y 0).val = (y 0).val; omega
    | ⟨1, _⟩ => show win2_5.index t (1 : Fin 2) * 1 + 1 * (y 1).val = (y 1).val; omega
  rw [hemb, h1, h2, h3, h4, h5]
  exact Net.head_row _ _ _ _ _ _ _ p _ hrow q

/-- An index of the result array is in point t's block iff each coordinate is in the block's range on its axis. -/
theorem mem_blk2 (t : Fin cfg2.N) (i : S50000x1.Idx) :
    i ∈ ((cfg2.win 6).blk t).view.set ↔ ∀ a : Fin 2, win2_6.index t a * S2000x1.size a ≤ (i a).val
      ∧ (i a).val < win2_6.index t a * S2000x1.size a + S2000x1.size a := by
  show i ∈ ((View.whole main_v32).slice (win2_6.rect t)).set ↔ _
  rw [View.set_slice_whole, Rect.mem_set_unit]
  exact Iff.rfl

/-- THE RESULT OF REGION 2: the dense head of the arrays the region finds. -/
theorem region2_value (c : Dev nD) :
    (dat2 V c).arrAt 6 cfg2.N
      = Net.head (V c main_v28) (V c main_v29) (V c main_arg8) (V c main_v30) (V c main_arg10) (V c main_v31) :=
  (dat2 V c).arrAt_eq_of_cover 6 _ (fun t _ => flushed2_eq V c t) fun i => by
    have hi0 : (i 0).val < 50000 := (i 0).isLt
    have hi1 : (i 1).val < 1 := (i 1).isLt
    have hN : cfg2.N = 25 := N_2
    let t : Fin cfg2.N := ⟨(i 0).val / 2000, by rw [hN]; omega⟩
    obtain ⟨e00, e01, e10, e11, e20, e21, e30, e31, e40, e41, e50, e51, e60, e61⟩ := idx2 t
    have e60' : win2_6.index t (0 : Fin 2) = (i 0).val / 2000 := e60
    refine ⟨t, flush2_6 t, ?_⟩
    rw [mem_blk2]
    intro a
    match a with
    | ⟨0, _⟩ =>
      show win2_6.index t (0 : Fin 2) * 2000 ≤ (i 0).val ∧ (i 0).val < win2_6.index t (0 : Fin 2) * 2000 + 2000
      omega
    | ⟨1, _⟩ =>
      show win2_6.index t (1 : Fin 2) * 1 ≤ (i 1).val ∧ (i 1).val < win2_6.index t (1 : Fin 2) * 1 + 1
      omega

end Cert.KernelIdeal.Stages

end
-- ==== Proof.KernelValue.lean ====
/-
  The idealized kernel's result as the network of its arguments.

  The buffer contents at @main's segment boundaries, read stage by stage: region 0 leaves x · W₁; the first stretch of
  host operations aggregates it over the edges and lays the bias b₁ out as a row; region 1 leaves s(a₁ + b₁) · W₂; the
  second stretch aggregates again and lays out the three remaining biases; region 2 leaves the dense head. No
  operation writes an argument array, so each is read at every boundary as launched.
-/
import proofs.«170280_j68341519614046_1_alg».proof.Proof.KernelRun
import proofs.«170280_j68341519614046_1_alg».proof.Proof.KernelProj
import proofs.«170280_j68341519614046_1_alg».proof.Proof.KernelLayer
import proofs.«170280_j68341519614046_1_alg».proof.Proof.KernelHead
import proofs.«170280_j68341519614046_1_alg».proof.Proof.LibRowLayout
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The kernel program's edge aggregation of a [50000, 64] array: gather the (wrapped) source rows, scale by the edge
    weights, add into the destination rows of a zero array. -/
def aggK (x1 x2 : IVec S800000 32) (x3 : FVec Ideal S800000 .f32) (h : FVec Ideal S50000x64 .f32) :
    FVec Ideal S50000x64 .f32 :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 x2)
    (mulf (Host.gather gather_S50000x64_S800000x1_S800000x64_1_0_n_n_0_1_164 h
        (broadcastInDim S800000x1 ![0] bcast_S800000_S800000x1_0
          (select (cmpi .slt x1 (broadcastInDim S800000 ![] bcast_S_S800000 (constantI S_ 32 0#32)))
            (addi x1 (broadcastInDim S800000 ![] bcast_S_S800000 (constantI S_ 32 50000#32))) x1)))
      (broadcastInDim S800000x64 ![0, 1] bcast_S800000x1_S800000x64_0_1
        (broadcastInDim S800000x1 ![0] bcast_S800000_S800000x1_0 x3)))

/-! ## The arguments reach every boundary as launched -/

theorem W1_arg1 (c : Dev nD) : W1 m ρ c (Proc.devRef .tc main_arg1) = (m ((c : Thread nD τ).loc main_arg1)) :=
  W1_of_ne m ρ c main_arg1 (by decide)
theorem W2_arg1 (c : Dev nD) : W2 m ρ c (Proc.devRef .tc main_arg1) = (m ((c : Thread nD τ).loc main_arg1)) := by
  dsimp only [W2]; after_results; exact W1_arg1 m ρ c
theorem W1_arg2 (c : Dev nD) : W1 m ρ c (Proc.devRef .tc main_arg2) = (m ((c : Thread nD τ).loc main_arg2)) :=
  W1_of_ne m ρ c main_arg2 (by decide)
theorem W2_arg2 (c : Dev nD) : W2 m ρ c (Proc.devRef .tc main_arg2) = (m ((c : Thread nD τ).loc main_arg2)) := by
  dsimp only [W2]; after_results; exact W1_arg2 m ρ c
theorem W1_arg3 (c : Dev nD) : W1 m ρ c (Proc.devRef .tc main_arg3) = (m ((c : Thread nD τ).loc main_arg3)) :=
  W1_of_ne m ρ c main_arg3 (by decide)
theorem W2_arg3 (c : Dev nD) : W2 m ρ c (Proc.devRef .tc main_arg3) = (m ((c : Thread nD τ).loc main_arg3)) := by
  dsimp only [W2]; after_results; exact W1_arg3 m ρ c
theorem W1_arg5 (c : Dev nD) : W1 m ρ c (Proc.devRef .tc main_arg5) = (m ((c : Thread nD τ).loc main_arg5)) :=
  W1_of_ne m ρ c main_arg5 (by decide)
theorem W2_arg5 (c : Dev nD) : W2 m ρ c (Proc.devRef .tc main_arg5) = (m ((c : Thread nD τ).loc main_arg5)) := by
  dsimp only [W2]; after_results; exact W1_arg5 m ρ c
theorem W1_arg6 (c : Dev nD) : W1 m ρ c (Proc.devRef .tc main_arg6) = (m ((c : Thread nD τ).loc main_arg6)) :=
  W1_of_ne m ρ c main_arg6 (by decide)
theorem W2_arg6 (c : Dev nD) : W2 m ρ c (Proc.devRef .tc main_arg6) = (m ((c : Thread nD τ).loc main_arg6)) := by
  dsimp only [W2]; after_results; exact W1_arg6 m ρ c
theorem W1_arg7 (c : Dev nD) : W1 m ρ c (Proc.devRef .tc main_arg7) = (m ((c : Thread nD τ).loc main_arg7)) :=
  W1_of_ne m ρ c main_arg7 (by decide)
theorem W2_arg7 (c : Dev nD) : W2 m ρ c (Proc.devRef .tc main_arg7) = (m ((c : Thread nD τ).loc main_arg7)) := by
  dsimp only [W2]; after_results; exact W1_arg7 m ρ c
theorem W1_arg8 (c : Dev nD) : W1 m ρ c (Proc.devRef .tc main_arg8) = (m ((c : Thread nD τ).loc main_arg8)) :=
  W1_of_ne m ρ c main_arg8 (by decide)
theorem W2_arg8 (c : Dev nD) : W2 m ρ c (Proc.devRef .tc main_arg8) = (m ((c : Thread nD τ).loc main_arg8)) := by
  dsimp only [W2]; after_results; exact W1_arg8 m ρ c
theorem W1_arg9 (c : Dev nD) : W1 m ρ c (Proc.devRef .tc main_arg9) = (m ((c : Thread nD τ).loc main_arg9)) :=
  W1_of_ne m ρ c main_arg9 (by decide)
theorem W2_arg9 (c : Dev nD) : W2 m ρ c (Proc.devRef .tc main_arg9) = (m ((c : Thread nD τ).loc main_arg9)) := by
  dsimp only [W2]; after_results; exact W1_arg9 m ρ c
theorem W1_arg10 (c : Dev nD) : W1 m ρ c (Proc.devRef .tc main_arg10) = (m ((c : Thread nD τ).loc main_arg10)) :=
  W1_of_ne m ρ c main_arg10 (by decide)
theorem W2_arg10 (c : Dev nD) : W2 m ρ c (Proc.devRef .tc main_arg10) = (m ((c : Thread nD τ).loc main_arg10)) := by
  dsimp only [W2]; after_results; exact W1_arg10 m ρ c
theorem W1_arg11 (c : Dev nD) : W1 m ρ c (Proc.devRef .tc main_arg11) = (m ((c : Thread nD τ).loc main_arg11)) :=
  W1_of_ne m ρ c main_arg11 (by decide)
theorem W2_arg11 (c : Dev nD) : W2 m ρ c (Proc.devRef .tc main_arg11) = (m ((c : Thread nD τ).loc main_arg11)) := by
  dsimp only [W2]; after_results; exact W1_arg11 m ρ c
theorem W3_arg1 (c : Dev nD) : W3 m ρ c (Proc.devRef .tc main_arg1) = (m ((c : Thread nD τ).loc main_arg1)) :=
  (W3_of_ne m ρ c main_arg1 (by decide)).trans (W2_arg1 m ρ c)
theorem W3_arg2 (c : Dev nD) : W3 m ρ c (Proc.devRef .tc main_arg2) = (m ((c : Thread nD τ).loc main_arg2)) :=
  (W3_of_ne m ρ c main_arg2 (by decide)).trans (W2_arg2 m ρ c)
theorem W3_arg3 (c : Dev nD) : W3 m ρ c (Proc.devRef .tc main_arg3) = (m ((c : Thread nD τ).loc main_arg3)) :=
  (W3_of_ne m ρ c main_arg3 (by decide)).trans (W2_arg3 m ρ c)
theorem W3_arg7 (c : Dev nD) : W3 m ρ c (Proc.devRef .tc main_arg7) = (m ((c : Thread nD τ).loc main_arg7)) :=
  (W3_of_ne m ρ c main_arg7 (by decide)).trans (W2_arg7 m ρ c)
theorem W3_arg8 (c : Dev nD) : W3 m ρ c (Proc.devRef .tc main_arg8) = (m ((c : Thread nD τ).loc main_arg8)) :=
  (W3_of_ne m ρ c main_arg8 (by decide)).trans (W2_arg8 m ρ c)
theorem W3_arg9 (c : Dev nD) : W3 m ρ c (Proc.devRef .tc main_arg9) = (m ((c : Thread nD τ).loc main_arg9)) :=
  (W3_of_ne m ρ c main_arg9 (by decide)).trans (W2_arg9 m ρ c)
theorem W3_arg10 (c : Dev nD) : W3 m ρ c (Proc.devRef .tc main_arg10) = (m ((c : Thread nD τ).loc main_arg10)) :=
  (W3_of_ne m ρ c main_arg10 (by decide)).trans (W2_arg10 m ρ c)
theorem W3_arg11 (c : Dev nD) : W3 m ρ c (Proc.devRef .tc main_arg11) = (m ((c : Thread nD τ).loc main_arg11)) :=
  (W3_of_ne m ρ c main_arg11 (by decide)).trans (W2_arg11 m ρ c)
theorem W4_arg8 (c : Dev nD) : W4 m ρ c (Proc.devRef .tc main_arg8) = (m ((c : Thread nD τ).loc main_arg8)) := by
  dsimp only [W4]; after_results; exact W3_arg8 m ρ c
theorem W4_arg10 (c : Dev nD) : W4 m ρ c (Proc.devRef .tc main_arg10) = (m ((c : Thread nD τ).loc main_arg10)) := by
  dsimp only [W4]; after_results; exact W3_arg10 m ρ c

/-! ## The two stretches of host operations -/

set_option maxHeartbeats 1600000 in
/-- After the first stretch: the aggregation of region 0's result. -/
theorem W2_v13 (c : Dev nD) : W2 m ρ c (Proc.devRef .tc main_v13)
    = aggK (m ((c : Thread nD τ).loc main_arg1)) (m ((c : Thread nD τ).loc main_arg2)) (m ((c : Thread nD τ).loc main_arg3)) ((dat0 (V0 m ρ) c).arrAt 2 cfg0.N) := by
  dsimp only [W2]; after_results
  have e0 : W1 m ρ c (Proc.devRef .tc main_v0) = (dat0 (V0 m ρ) c).arrAt 2 cfg0.N := W1_arr m ρ c 2
  rw [W1_arg1 m ρ c, W1_arg2 m ρ c, W1_arg3 m ρ c, e0]
  rfl

/-- The bias vector reshaped to a row. -/
theorem W2_v14 (c : Dev nD) : W2 m ρ c (Proc.devRef .tc main_v14) = Net.rowOf (m ((c : Thread nD τ).loc main_arg5)) := by
  dsimp only [W2]; after_results
  rw [W1_arg5 m ρ c]
  funext j
  obtain ⟨r, q, rfl⟩ : ∃ (r : Fin 1) (q : Fin 64), j = ix2 r q := ⟨j 0, j 1, eq_ix2 j⟩
  obtain rfl : r = 0 := Subsingleton.elim _ _
  exact Cert.Lib.vecToRow_apply _ _ q

set_option maxHeartbeats 1600000 in
/-- After the second stretch: the aggregation of region 1's result. -/
theorem W4_v28 (c : Dev nD) : W4 m ρ c (Proc.devRef .tc main_v28)
    = aggK (m ((c : Thread nD τ).loc main_arg1)) (m ((c : Thread nD τ).loc main_arg2)) (m ((c : Thread nD τ).loc main_arg3)) ((dat1 (V2 m ρ) c).arrAt 3 cfg1.N) := by
  dsimp only [W4]; after_results
  have e0 : W3 m ρ c (Proc.devRef .tc main_v15) = (dat1 (V2 m ρ) c).arrAt 3 cfg1.N := W3_arr m ρ c 3
  rw [W3_arg1 m ρ c, W3_arg2 m ρ c, W3_arg3 m ρ c, e0]
  rfl

/-- The bias vector reshaped to a row. -/
theorem W4_v29 (c : Dev nD) : W4 m ρ c (Proc.devRef .tc main_v29) = Net.rowOf (m ((c : Thread nD τ).loc main_arg7)) := by
  dsimp only [W4]; after_results
  rw [W3_arg7 m ρ c]
  funext j
  obtain ⟨r, q, rfl⟩ : ∃ (r : Fin 1) (q : Fin 64), j = ix2 r q := ⟨j 0, j 1, eq_ix2 j⟩
  obtain rfl : r = 0 := Subsingleton.elim _ _
  exact Cert.Lib.vecToRow_apply _ _ q

/-- The bias vector reshaped to a row. -/
theorem W4_v30 (c : Dev nD) : W4 m ρ c (Proc.devRef .tc main_v30) = Net.rowOf (m ((c : Thread nD τ).loc main_arg9)) := by
  dsimp only [W4]; after_results
  rw [W3_arg9 m ρ c]
  funext j
  obtain ⟨r, q, rfl⟩ : ∃ (r : Fin 1) (q : Fin 100), j = ix2 r q := ⟨j 0, j 1, eq_ix2 j⟩
  obtain rfl : r = 0 := Subsingleton.elim _ _
  exact Cert.Lib.vecToRow_apply _ _ q

/-- The bias vector reshaped to a row. -/
theorem W4_v31 (c : Dev nD) : W4 m ρ c (Proc.devRef .tc main_v31) = Net.rowOf (m ((c : Thread nD τ).loc main_arg11)) := by
  dsimp only [W4]; after_results
  rw [W3_arg11 m ρ c]
  funext j
  obtain ⟨r, q, rfl⟩ : ∃ (r : Fin 1) (q : Fin 1), j = ix2 r q := ⟨j 0, j 1, eq_ix2 j⟩
  obtain rfl : r = 0 := Subsingleton.elim _ _
  exact Cert.Lib.vecToRow_apply _ _ q

/-! ## The result -/

/-- THE KERNEL'S RESULT: the last boundary's contents at the result array is the network of the launch memory's
    argument arrays, with the kernel program's aggregation. -/
theorem kernel_value (c : Dev nD) : W5 m ρ c (Proc.devRef .tc main_v32)
    = Net.net (aggK (m ((c : Thread nD τ).loc main_arg1)) (m ((c : Thread nD τ).loc main_arg2)) (m ((c : Thread nD τ).loc main_arg3))) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h0 : (dat0 (V0 m ρ) c).arrAt 2 cfg0.N = Net.mm (m ((c : Thread nD τ).loc main_arg0)) (m ((c : Thread nD τ).loc main_arg4)) := region0_value (V0 m ρ) c
  have h1 : (dat1 (V2 m ρ) c).arrAt 3 cfg1.N
      = Net.mm (Net.act (aggK (m ((c : Thread nD τ).loc main_arg1)) (m ((c : Thread nD τ).loc main_arg2)) (m ((c : Thread nD τ).loc main_arg3)) (Net.mm (m ((c : Thread nD τ).loc main_arg0)) (m ((c : Thread nD τ).loc main_arg4)))) (Net.rowOf (m ((c : Thread nD τ).loc main_arg5)))) (m ((c : Thread nD τ).loc main_arg6)) := by
    rw [region1_value (V2 m ρ) c]
    show Net.mm (Net.act (W2 m ρ c (Proc.devRef .tc main_v13)) (W2 m ρ c (Proc.devRef .tc main_v14)))
      (W2 m ρ c (Proc.devRef .tc main_arg6)) = _
    rw [W2_v13 m ρ c, W2_v14 m ρ c, W2_arg6 m ρ c, h0]
  have h2 : W5 m ρ c (Proc.devRef .tc main_v32) = (dat2 (V4 m ρ) c).arrAt 6 cfg2.N := W5_arr m ρ c 6
  rw [h2, region2_value (V4 m ρ) c]
  show Net.head (W4 m ρ c (Proc.devRef .tc main_v28)) (W4 m ρ c (Proc.devRef .tc main_v29))
    (W4 m ρ c (Proc.devRef .tc main_arg8)) (W4 m ρ c (Proc.devRef .tc main_v30))
    (W4 m ρ c (Proc.devRef .tc main_arg10)) (W4 m ρ c (Proc.devRef .tc main_v31)) = _
  rw [W4_v28 m ρ c, W4_v29 m ρ c, W4_arg8 m ρ c, W4_v30 m ρ c, W4_arg10 m ρ c, W4_v31 m ρ c, h1]
  rfl

end Cert.KernelIdeal.Stages

end
-- ==== Proof.LibHostLogistic.lean ====
/-
  The logistic function and the swish as a host program spells them, and a bias vector added to every row of a matrix,
  read at an index over the extended reals. Independent of any program.

  A host program may spell σ(z) out as 1 / (1 + e^(-z)) in four elementwise operations — negate, exponential, add,
  divide — with the scalar 1.0 broadcast to the array's shape; the swish is z times that. Over the extended reals the f32 word of
  1.0 denotes 1, and `Ideal.logistic z` is by definition `Ideal.div 1 (1 + Ideal.exp (-z))`: so the spelt-out quotient
  IS the logistic function at every index, infinities included. A bias vector [f] broadcast to the row [1, f] and then
  down n rows contributes its entry q to entry (p, q).
-/
import Idealize.ShloMosaic.Lib.ValueIdx
import Idealize.ShloMosaic.Lib.Pipeline.Value
import Idealize.ShloMosaic.PureOps.Ideal
import Idealize.ShloMosaic.PureOps.IdealRules

noncomputable section

namespace Cert.Lib

open Idealize.ShloMosaic Idealize.ShloMosaic.ValueIdx

/-- The f32 word of 1.0 denotes the extended real 1. -/
theorem one_f32 : Ideal.ofBits .f32 0x3F800000#32 = 1 := IdealRules.sign_bit.ideal_onePat .f32

/-- The scalar 1.0 broadcast to any shape is 1 at every index. -/
theorem ones_apply {s : Shape} (h0 : (⟨0, ![]⟩ : Shape).BroadcastsInDim s ![]) (i : s.Idx) :
    broadcastInDim s ![] h0 (constant (F := Ideal) ⟨0, ![]⟩ .f32 0x3F800000#32) i = 1 :=
  (broadcastInDim_apply ![] h0 _ i ix0 (fun a => a.elim0)).trans one_f32

/-- 1 / (1 + e^(-z)), spelt in the host's operations, is the logistic function at every index. -/
theorem hostLogistic_apply {s : Shape} (z : FVec Ideal s .f32) (h0 : (⟨0, ![]⟩ : Shape).BroadcastsInDim s ![]) (i : s.Idx) :
    Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z))) i
      = Ideal.logistic (z i) := by
  show Ideal.div (broadcastInDim s ![] h0 (constant (F := Ideal) ⟨0, ![]⟩ .f32 0x3F800000#32) i)
      (broadcastInDim s ![] h0 (constant (F := Ideal) ⟨0, ![]⟩ .f32 0x3F800000#32) i + Ideal.exp (-(z i)))
    = Ideal.div 1 (1 + Ideal.exp (-(z i)))
  rw [ones_apply h0 i]

/-- z · (1 / (1 + e^(-z))), spelt in the host's operations, is z · σ(z) at every index. -/
theorem hostSwish_apply {s : Shape} (z : FVec Ideal s .f32) (h0 : (⟨0, ![]⟩ : Shape).BroadcastsInDim s ![]) (i : s.Idx) :
    mulf z (Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z)))) i
      = z i * Ideal.logistic (z i) :=
  congrArg (z i * ·) (hostLogistic_apply z h0 i)

/-- A bias vector [f] broadcast to the row [1, f], then down n rows, and added: entry (p, q) gains the vector's entry q. -/
theorem hostRowBias_apply {n f : Nat} (a : FVec Ideal ⟨2, ![n, f]⟩ .f32) (b : FVec Ideal ⟨1, ![f]⟩ .f32)
    (h1 : (⟨1, ![f]⟩ : Shape).BroadcastsInDim ⟨2, ![1, f]⟩ ![1])
    (h2 : (⟨2, ![1, f]⟩ : Shape).BroadcastsInDim ⟨2, ![n, f]⟩ ![0, 1]) (p : Fin n) (q : Fin f) :
    addf a (broadcastInDim ⟨2, ![n, f]⟩ ![0, 1] h2 (broadcastInDim ⟨2, ![1, f]⟩ ![1] h1 b)) (ix2 p q)
      = a (ix2 p q) + b (ix1 q) := by
  have hq := q.isLt
  have e2 : broadcastInDim ⟨2, ![n, f]⟩ ![0, 1] h2 (broadcastInDim ⟨2, ![1, f]⟩ ![1] h1 b) (ix2 p q)
      = broadcastInDim ⟨2, ![1, f]⟩ ![1] h1 b (ix2 0 q) :=
    broadcastInDim_apply ![0, 1] h2 _ (ix2 p q) (ix2 0 q) (fun d => by
      match d with
      | ⟨0, _⟩ => show (0 : Nat) = if (1 : Nat) = 1 then 0 else p.val; rw [if_pos rfl]
      | ⟨1, _⟩ => show q.val = if f = 1 then 0 else q.val; split <;> omega)
  have e1 : broadcastInDim ⟨2, ![1, f]⟩ ![1] h1 b (ix2 0 q) = b (ix1 q) :=
    broadcastInDim_apply ![1] h1 b (ix2 0 q) (ix1 q) (fun d => by
      match d with
      | ⟨0, _⟩ => show q.val = if f = 1 then 0 else q.val; split <;> omega)
  show a (ix2 p q) + _ = a (ix2 p q) + b (ix1 q)
  rw [e2, e1]

end Cert.Lib

end
-- ==== Proof.RefStages.lean ====
/-
  The idealized reference, stage by stage, as the network's operations over the extended reals.

  The host's matrix products are the matrix product; a bias vector broadcast to a row and then down the rows, added, and
  followed by z · (1 / (1 + e^(-z))) — the swish with the logistic function spelt out in negate, exponential, add and
  divide — is the layer's activation, because over the extended reals that quotient IS the logistic function and the
  f32 word for 1.0 denotes 1; the same without the leading factor is the output's σ. The two aggregations are one map
  `aggR` of [50000, 64] arrays, never opened here.
-/
import proofs.«170280_j68341519614046_1_alg».proof.Proof.Gen.ReferenceIdeal.Read
import proofs.«170280_j68341519614046_1_alg».proof.Proof.Net
import proofs.«170280_j68341519614046_1_alg».proof.Proof.LibPlainDot
import proofs.«170280_j68341519614046_1_alg».proof.Proof.LibHostLogistic
import Idealize.ShloMosaic.Lib.Pipeline.Value
import Idealize.ShloMosaic.Lib.ValueIdx

noncomputable section

namespace Cert.ReferenceIdeal.Stages

open Cert.ReferenceIdeal Cert.ReferenceIdeal.Gen Cert.ReferenceIdeal.Read
open Idealize.ShloMosaic Idealize.ShloMosaic.TcCoe Idealize.ShloMosaic.ValueIdx

/-- z · (1 / (1 + e^(-z))), spelt in the host's operations, is the swish at every index. -/
theorem hostSwish_eq {s : Shape} (z : FVec Ideal s .f32) (h0 : (⟨0, ![]⟩ : Shape).BroadcastsInDim s ![]) :
    mulf z (Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z))))
      = fun i => Net.swish (z i) :=
  funext fun i => Cert.Lib.hostSwish_apply z h0 i

/-- 1 / (1 + e^(-z)), spelt in the host's operations, is the logistic function at every index. -/
theorem hostLogistic_eq {s : Shape} (z : FVec Ideal s .f32) (h0 : (⟨0, ![]⟩ : Shape).BroadcastsInDim s ![]) :
    Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z)))
      = fun i => Ideal.logistic (z i) :=
  funext fun i => Cert.Lib.hostLogistic_apply z h0 i

/-- A bias vector broadcast to a row, then down the rows, and added: entry (p, q) gains the vector's entry q. -/
theorem hostBias_eq {n f : Nat} (a : FVec Ideal ⟨2, ![n, f]⟩ .f32) (b : FVec Ideal ⟨1, ![f]⟩ .f32)
    (h1 : (⟨1, ![f]⟩ : Shape).BroadcastsInDim ⟨2, ![1, f]⟩ ![1])
    (h2 : (⟨2, ![1, f]⟩ : Shape).BroadcastsInDim ⟨2, ![n, f]⟩ ![0, 1]) :
    addf a (broadcastInDim ⟨2, ![n, f]⟩ ![0, 1] h2 (broadcastInDim ⟨2, ![1, f]⟩ ![1] h1 b))
      = fun i => a i + Net.rowOf b (ix2 0 (i 1)) := by
  funext j
  obtain ⟨p, q, rfl⟩ : ∃ (p : Fin n) (q : Fin f), j = ix2 p q := ⟨j 0, j 1, eq_ix2 j⟩
  exact Cert.Lib.hostRowBias_apply a b h1 h2 p q

/-! ## The host's matrix products -/

theorem dot_64_64 (l : FVec Ideal S50000x64 .f32) (r : FVec Ideal S64x64 .f32) :
    Host.dotGeneral dot_S50000x64_S64x64_S50000x64_1_0_0_1_n_n none l r = Net.mm l r := by
  funext j
  obtain ⟨p, q, rfl⟩ : ∃ (p : Fin 50000) (q : Fin 64), j = ix2 p q := ⟨j 0, j 1, eq_ix2 j⟩
  exact Cert.Lib.dotGeneral_plain_apply dot_S50000x64_S64x64_S50000x64_1_0_0_1_n_n_wf none _ l r p q

theorem dot_64_100 (l : FVec Ideal S50000x64 .f32) (r : FVec Ideal S64x100 .f32) :
    Host.dotGeneral dot_S50000x64_S64x100_S50000x100_1_0_0_1_n_n none l r = Net.mm l r := by
  funext j
  obtain ⟨p, q, rfl⟩ : ∃ (p : Fin 50000) (q : Fin 100), j = ix2 p q := ⟨j 0, j 1, eq_ix2 j⟩
  exact Cert.Lib.dotGeneral_plain_apply dot_S50000x64_S64x100_S50000x100_1_0_0_1_n_n_wf none _ l r p q

theorem dot_100_1 (l : FVec Ideal S50000x100 .f32) (r : FVec Ideal S100x1 .f32) :
    Host.dotGeneral dot_S50000x100_S100x1_S50000x1_1_0_0_1_n_n none l r = Net.mm l r := by
  funext j
  obtain ⟨p, q, rfl⟩ : ∃ (p : Fin 50000) (q : Fin 1), j = ix2 p q := ⟨j 0, j 1, eq_ix2 j⟩
  exact Cert.Lib.dotGeneral_plain_apply dot_S50000x100_S100x1_S50000x1_1_0_0_1_n_n_wf none _ l r p q

/-! ## The activations -/

/-- Bias and swish over [50000, 64]. -/
theorem act_64 (a : FVec Ideal S50000x64 .f32) (b : FVec Ideal S64 .f32) :
    mulf (addf a (broadcastInDim S50000x64 ![0, 1] bcast_S1x64_S50000x64_0_1 (broadcastInDim S1x64 ![1] bcast_S64_S1x64_1 b)))
      (Host.divf (broadcastInDim S50000x64 ![] bcast_S_S50000x64 (constant (F := Ideal) S_ .f32 0x3F800000#32))
        (addf (broadcastInDim S50000x64 ![] bcast_S_S50000x64 (constant (F := Ideal) S_ .f32 0x3F800000#32))
          (Host.exp (Host.negf (addf a (broadcastInDim S50000x64 ![0, 1] bcast_S1x64_S50000x64_0_1
            (broadcastInDim S1x64 ![1] bcast_S64_S1x64_1 b)))))))
      = Net.act a (Net.rowOf b) := by
  rw [hostSwish_eq, hostBias_eq (n := 50000) (f := 64) a b bcast_S64_S1x64_1 bcast_S1x64_S50000x64_0_1]
  rfl

/-- Bias and swish over [50000, 100]. -/
theorem act_100 (a : FVec Ideal S50000x100 .f32) (b : FVec Ideal S100 .f32) :
    mulf (addf a (broadcastInDim S50000x100 ![0, 1] bcast_S1x100_S50000x100_0_1 (broadcastInDim S1x100 ![1] bcast_S100_S1x100_1 b)))
      (Host.divf (broadcastInDim S50000x100 ![] bcast_S_S50000x100 (constant (F := Ideal) S_ .f32 0x3F800000#32))
        (addf (broadcastInDim S50000x100 ![] bcast_S_S50000x100 (constant (F := Ideal) S_ .f32 0x3F800000#32))
          (Host.exp (Host.negf (addf a (broadcastInDim S50000x100 ![0, 1] bcast_S1x100_S50000x100_0_1
            (broadcastInDim S1x100 ![1] bcast_S100_S1x100_1 b)))))))
      = Net.act a (Net.rowOf b) := by
  rw [hostSwish_eq, hostBias_eq (n := 50000) (f := 100) a b bcast_S100_S1x100_1 bcast_S1x100_S50000x100_0_1]
  rfl

/-- Bias and logistic over [50000, 1]. -/
theorem sig_1 (a : FVec Ideal S50000x1 .f32) (b : FVec Ideal S1 .f32) :
    Host.divf (broadcastInDim S50000x1 ![] bcast_S_S50000x1 (constant (F := Ideal) S_ .f32 0x3F800000#32))
        (addf (broadcastInDim S50000x1 ![] bcast_S_S50000x1 (constant (F := Ideal) S_ .f32 0x3F800000#32))
          (Host.exp (Host.negf (addf a (broadcastInDim S50000x1 ![0, 1] bcast_S1x1_S50000x1_0_1
            (broadcastInDim S1x1 ![1] bcast_S1_S1x1_1 b))))))
      = Net.sig a (Net.rowOf b) := by
  rw [hostLogistic_eq, hostBias_eq (n := 50000) (f := 1) a b bcast_S1_S1x1_1 bcast_S1x1_S50000x1_0_1]
  rfl

/-! ## The aggregation, and the stages -/

/-- The reference's edge aggregation of a [50000, 64] array: gather the (wrapped) source rows, scale by the edge
    weights, add into the destination rows of a zero array. -/
def aggR (x1 x2 : IVec S800000 32) (x3 : FVec Ideal S800000 .f32) (h : FVec Ideal S50000x64 .f32) :
    FVec Ideal S50000x64 .f32 :=
  Host.scatterAdd (F := Ideal) (φ := .f32) scatter_S50000x64_S800000x1_S800000x64_1_0_0_1
    (val_main_v11 (F := Ideal) : FVec Ideal S50000x64 .f32) (val_main_v12 (F := Ideal) x2 : IVec S800000x1 32)
    (mulf (Host.gather gather_S50000x64_S800000x1_S800000x64_1_0_n_n_0_1_164 h (val_main_v6 (F := Ideal) x1 : IVec S800000x1 32) :
        FVec Ideal S800000x64 .f32)
      (val_main_v9 (F := Ideal) x3 : FVec Ideal S800000x64 .f32))

theorem ref_v0 (x0 : (⟨S50000x64, .f32⟩ : BufTy).Contents (Elt Ideal)) (x4 : (⟨S64x64, .f32⟩ : BufTy).Contents (Elt Ideal)) : val_main_v0 (F := Ideal) x0 x4 = Net.mm x0 x4 := dot_64_64 x0 x4

theorem ref_v13 (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) :
    val_main_v13 (F := Ideal) x0 x1 x2 x3 x4 = aggR x1 x2 x3 (val_main_v0 (F := Ideal) x0 x4) := rfl

theorem ref_v17 (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) (x5 : (⟨S64, .f32⟩ : BufTy).Contents (Elt Ideal)) :
    val_main_v17 (F := Ideal) x0 x1 x2 x3 x4 x5 = Net.act (val_main_v13 (F := Ideal) x0 x1 x2 x3 x4) (Net.rowOf x5) :=
  act_64 (val_main_v13 (F := Ideal) x0 x1 x2 x3 x4) x5

theorem ref_v18 (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    val_main_v18 (F := Ideal) x0 x1 x2 x3 x4 x5 x6 = Net.mm (val_main_v17 (F := Ideal) x0 x1 x2 x3 x4 x5) x6 :=
  dot_64_64 (val_main_v17 (F := Ideal) x0 x1 x2 x3 x4 x5) x6

theorem ref_v31 (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    val_main_v31 (F := Ideal) x0 x1 x2 x3 x4 x5 x6 = aggR x1 x2 x3 (val_main_v18 (F := Ideal) x0 x1 x2 x3 x4 x5 x6) := rfl

theorem ref_v35 (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v35 (F := Ideal) x0 x1 x2 x3 x4 x5 x6 x7 = Net.act (val_main_v31 (F := Ideal) x0 x1 x2 x3 x4 x5 x6) (Net.rowOf x7) :=
  act_64 (val_main_v31 (F := Ideal) x0 x1 x2 x3 x4 x5 x6) x7

theorem ref_v36 (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x100, .f32⟩ : BufTy).Contents (Elt Ideal)) :
    val_main_v36 (F := Ideal) x0 x1 x2 x3 x4 x5 x6 x7 x8 = Net.mm (val_main_v35 (F := Ideal) x0 x1 x2 x3 x4 x5 x6 x7) x8 :=
  dot_64_100 (val_main_v35 (F := Ideal) x0 x1 x2 x3 x4 x5 x6 x7) x8

theorem ref_v40 (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x100, .f32⟩ : BufTy).Contents (Elt Ideal)) (x9 : (⟨S100, .f32⟩ : BufTy).Contents (Elt Ideal)) :
    val_main_v40 (F := Ideal) x0 x1 x2 x3 x4 x5 x6 x7 x8 x9 = Net.act (val_main_v36 (F := Ideal) x0 x1 x2 x3 x4 x5 x6 x7 x8) (Net.rowOf x9) :=
  act_100 (val_main_v36 (F := Ideal) x0 x1 x2 x3 x4 x5 x6 x7 x8) x9

theorem ref_v41 (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x100, .f32⟩ : BufTy).Contents (Elt Ideal)) (x9 : (⟨S100, .f32⟩ : BufTy).Contents (Elt Ideal)) (x10 : (⟨S100x1, .f32⟩ : BufTy).Contents (Elt Ideal)) :
    val_main_v41 (F := Ideal) x0 x1 x2 x3 x4 x5 x6 x7 x8 x9 x10 = Net.mm (val_main_v40 (F := Ideal) x0 x1 x2 x3 x4 x5 x6 x7 x8 x9) x10 :=
  dot_100_1 (val_main_v40 (F := Ideal) x0 x1 x2 x3 x4 x5 x6 x7 x8 x9) x10

theorem ref_v50 (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x100, .f32⟩ : BufTy).Contents (Elt Ideal)) (x9 : (⟨S100, .f32⟩ : BufTy).Contents (Elt Ideal)) (x10 : (⟨S100x1, .f32⟩ : BufTy).Contents (Elt Ideal)) (x11 : (⟨S1, .f32⟩ : BufTy).Contents (Elt Ideal)) :
    val_main_v50 (F := Ideal) x0 x1 x2 x3 x4 x5 x6 x7 x8 x9 x10 x11 = Net.sig (val_main_v41 (F := Ideal) x0 x1 x2 x3 x4 x5 x6 x7 x8 x9 x10) (Net.rowOf x11) :=
  sig_1 (val_main_v41 (F := Ideal) x0 x1 x2 x3 x4 x5 x6 x7 x8 x9 x10) x11

/-- THE REFERENCE'S RESULT is the network of its arguments, with its own aggregation. -/
theorem ref_value (x0 : (⟨S50000x64, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x100, .f32⟩ : BufTy).Contents (Elt Ideal)) (x9 : (⟨S100, .f32⟩ : BufTy).Contents (Elt Ideal)) (x10 : (⟨S100x1, .f32⟩ : BufTy).Contents (Elt Ideal)) (x11 : (⟨S1, .f32⟩ : BufTy).Contents (Elt Ideal)) :
    val_main_v50 (F := Ideal) x0 x1 x2 x3 x4 x5 x6 x7 x8 x9 x10 x11 = Net.net (aggR x1 x2 x3) x0 x4 x5 x6 x7 x8 x9 x10 x11 := by
  rw [ref_v50, ref_v41, ref_v40, ref_v36, ref_v35, ref_v31, ref_v18, ref_v17, ref_v13, ref_v0]
  rfl

end Cert.ReferenceIdeal.Stages

end
-- ==== Proof.AggBridge.lean ====
/-
  The two programs' edge aggregations are one map.

  Both programs aggregate with the same line of host operations — wrap a negative source index by the row count,
  gather the source rows, scale each by its edge weight, and add into the destination rows of a zero array — under
  dimension records with the same entries. Nothing about what the gather and the accumulating scatter compute is needed:
  the two terms are the same operations of the same operands.
-/
import proofs.«170280_j68341519614046_1_alg».proof.Proof.KernelValue
import proofs.«170280_j68341519614046_1_alg».proof.Proof.RefStages

noncomputable section

namespace Cert.Proof.Bridge

open Idealize.ShloMosaic

theorem agg_eq (x1 x2 : IVec Cert.KernelIdeal.S800000 32) (x3 : FVec Ideal Cert.KernelIdeal.S800000 .f32) :
    Cert.KernelIdeal.Stages.aggK x1 x2 x3 = Cert.ReferenceIdeal.Stages.aggR x1 x2 x3 := rfl

end Cert.Proof.Bridge

end
-- ==== Proof.lean ====
/-
  The proof of `Cert.Claim`: the three frames, the (empty) idealization ledger, and the equality of the idealized
  kernel's and the idealized reference's results over the extended reals.

  Both programs compute one network of their arguments — two graph-convolution layers and a dense head
  (Proof/Net.lean). The kernel computes it as three row-tiled kernel regions (x · W₁; s(a₁ + b₁) · W₂; the dense head)
  among the two edge aggregations done by host operations; the reference as one line of host operations, its swish and
  its σ spelt out in negate, exponential, add and divide. Over the extended reals a tile's product into a zero
  accumulator and the host's product are the same sums, a change of float format is the identity, and
  1 / (1 + e^(-z)) IS the logistic function; the aggregations are the same operations of the same operands. No
  finiteness is used: the two results are equal for all extended-real inputs.
-/
import proofs.«170280_j68341519614046_1_alg».proof.Defs
import proofs.«170280_j68341519614046_1_alg».proof.Proof.Gen.Kernel
import proofs.«170280_j68341519614046_1_alg».proof.Proof.Gen.Kernel.Frame
import proofs.«170280_j68341519614046_1_alg».proof.Proof.Gen.KernelIdeal
import proofs.«170280_j68341519614046_1_alg».proof.Proof.Gen.KernelIdeal.Frame
import proofs.«170280_j68341519614046_1_alg».proof.Proof.Gen.ReferenceIdeal
import proofs.«170280_j68341519614046_1_alg».proof.Proof.Gen.Pre_finite_inputs
import proofs.«170280_j68341519614046_1_alg».proof.Proof.Gen.ReferenceIdeal.Run
import proofs.«170280_j68341519614046_1_alg».proof.Proof.Gen.ReferenceIdeal.Read
import proofs.«170280_j68341519614046_1_alg».proof.Proof.KernelRun
import proofs.«170280_j68341519614046_1_alg».proof.Proof.KernelValue
import proofs.«170280_j68341519614046_1_alg».proof.Proof.RefStages
import proofs.«170280_j68341519614046_1_alg».proof.Proof.AggBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, both idealized programs end with the network of the arguments in
    their result arrays. -/
theorem algebraic : Cert.algebraic_KernelIdeal_ReferenceIdeal := by
  intro m ρ m' ρ' _ hagree
  refine ⟨fun c => Cert.KernelIdeal.Gen.W5 m ρ c (Proc.devRef .tc Cert.KernelIdeal.main_v32),
    Cert.KernelIdeal.Stages.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  show Cert.ReferenceIdeal.Value.res_main_v50 m' c
    = Cert.KernelIdeal.Gen.W5 m ρ c (Proc.devRef .tc Cert.KernelIdeal.main_v32)
  rw [Cert.ReferenceIdeal.Read.val_main_v50_eq, Cert.ReferenceIdeal.Stages.ref_value,
    a0, a1, a2, a3, a4, a5, a6, a7, a8, a9, a10, a11, Cert.KernelIdeal.Stages.kernel_value m ρ c]
  exact (congrArg (fun A => Cert.Net.net A _ _ _ _ _ _ _ _ _) (Cert.Proof.Bridge.agg_eq _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
